-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x4096 : Shape := ⟨3, ![8, 16, 4096]⟩
abbrev S1048576x16 : Shape := ⟨2, ![1048576, 16]⟩
abbrev S16x64 : Shape := ⟨2, ![16, 64]⟩
abbrev S64 : Shape := ⟨1, ![64]⟩
abbrev S64x16 : Shape := ⟨2, ![64, 16]⟩
abbrev S16 : Shape := ⟨1, ![16]⟩
abbrev S4096 : Shape := ⟨1, ![4096]⟩
abbrev S_ : Shape := ⟨0, ![]⟩

class Facts : Prop where
  bcast_S_S8x16x4096 : S_.BroadcastsInDim S8x16x4096 (![] : Fin 0 → Fin S8x16x4096.rank)
  reducesTo_S8x16x4096_S_d0_1_2 : S8x16x4096.ReducesTo [0, 1, 2] S_
  h_S_ : 0 < S_.numel
  bcast_S_S1048576x16 : S_.BroadcastsInDim S1048576x16 (![] : Fin 0 → Fin S1048576x16.rank)
  reducesTo_S1048576x16_S_d0_1 : S1048576x16.ReducesTo [0, 1] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S64x16 .f32) (main_arg5 : FVec F S16 .f32) (main_arg6 : FVec F S4096 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x16 .f32 := Host.absf main_arg4
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S8x16x4096 .f32) (main_arg1 : FVec F S1048576x16 .f32) (main_arg2 : FVec F S16x64 .f32) (main_arg3 : FVec F S64 .f32) (main_arg4 : FVec F S64x16 .f32) (main_arg5 : FVec F S16 .f32) (main_arg6 : FVec F S4096 .f32) : IVec S_ 1 :=
  let main_v0 : FVec F S8x16x4096 .f32 := Host.absf main_arg0
  let main_cst : FVec F S_ .f32 := constant S_ .f32 0x7F800000#32
  let main_v1 : FVec F S8x16x4096 .f32 := broadcastInDim S8x16x4096 ![] bcast_S_S8x16x4096 main_cst
  let main_v2 : IVec S8x16x4096 1 := cmpf .olt main_v0 main_v1
  let main_c : IVec S_ 1 := constantI S_ 1 1#1
  let main_v3 : IVec S_ 1 := (fun x v => Host.reduce IntOp.andi x v reducesTo_S8x16x4096_S_d0_1_2 h_S_) main_v2 main_c
  let main_v4 : FVec F S1048576x16 .f32 := Host.absf main_arg1
  let main_cst_0 : FVec F S_ .f32 := constant S_ .f32 0x7F800000#32
  let main_v5 : FVec F S1048576x16 .f32 := broadcastInDim S1048576x16 ![] bcast_S_S1048576x16 main_cst_0
  let main_v6 : IVec S1048576x16 1 := cmpf .olt main_v4 main_v5
  let main_c_1 : IVec S_ 1 := constantI S_ 1 1#1
  let main_v7 : IVec S_ 1 := (fun x v => Host.reduce IntOp.andi x v reducesTo_S1048576x16_S_d0_1 h_S_) main_v6 main_c_1
  let main_v8 : IVec S_ 1 := andi main_v3 main_v7
  let main_v9 : FVec F S16x64 .f32 := Host.absf main_arg2
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Kernel.lean ====
abbrev S8x16x4096 : Shape := ⟨3, ![8, 16, 4096]⟩
abbrev S1048576x16 : Shape := ⟨2, ![1048576, 16]⟩
abbrev S16x64 : Shape := ⟨2, ![16, 64]⟩
abbrev S64 : Shape := ⟨1, ![64]⟩
abbrev S64x16 : Shape := ⟨2, ![64, 16]⟩
abbrev S16 : Shape := ⟨1, ![16]⟩
abbrev S4096 : Shape := ⟨1, ![4096]⟩
abbrev S4x1048576x4 : Shape := ⟨3, ![4, 1048576, 4]⟩
abbrev S8192x16 : Shape := ⟨2, ![8192, 16]⟩
abbrev S4x8192x4 : Shape := ⟨3, ![4, 8192, 4]⟩
abbrev S8192x64 : Shape := ⟨2, ![8192, 64]⟩
abbrev S1x64 : Shape := ⟨2, ![1, 64]⟩
abbrev S1x16 : Shape := ⟨2, ![1, 16]⟩
abbrev S8192x4 : Shape := ⟨2, ![8192, 4]⟩
abbrev S1x8192x4 : Shape := ⟨3, ![1, 8192, 4]⟩
abbrev S4096x4096 : Shape := ⟨2, ![4096, 4096]⟩
abbrev S128x4096 : Shape := ⟨2, ![128, 4096]⟩
abbrev S1x4096 : Shape := ⟨2, ![1, 4096]⟩
abbrev S512x4096 : Shape := ⟨2, ![512, 4096]⟩
abbrev S1x512 : Shape := ⟨2, ![1, 512]⟩
abbrev S128x512 : Shape := ⟨2, ![128, 512]⟩

abbrev nBuf : Space → Nat
  | .hbm => 14
  | .vmem => 15
  | .smem => 0
  | _ => 0

abbrev bufTy : (tb : Table) → Fin (tcTables nBuf tb) → BufTy
  | .hbm, ⟨0, _⟩ => ⟨S8x16x4096, .f32⟩
  | .hbm, ⟨1, _⟩ => ⟨S1048576x16, .f32⟩
  | .hbm, ⟨2, _⟩ => ⟨S16x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S4096, .f32⟩
  | .hbm, ⟨7, _⟩ => ⟨S4x1048576x4, .bf16⟩
  | .hbm, ⟨8, _⟩ => ⟨S4096x4096, .bf16⟩
  | .hbm, ⟨9, _⟩ => ⟨S128x4096, .f32⟩
  | .hbm, ⟨10, _⟩ => ⟨S128x4096, .bf16⟩
  | .hbm, ⟨11, _⟩ => ⟨S1x4096, .f32⟩
  | .hbm, ⟨12, _⟩ => ⟨S128x4096, .f32⟩
  | .hbm, ⟨13, _⟩ => ⟨S8x16x4096, .f32⟩
  | .local _ .vmem, ⟨0, _⟩ => ⟨S8192x16, .f32⟩
  | .local _ .vmem, ⟨1, _⟩ => ⟨S8192x16, .f32⟩
  | .local _ .vmem, ⟨2, _⟩ => ⟨S16x64, .f32⟩
  | .local _ .vmem, ⟨3, _⟩ => ⟨S64, .f32⟩
  | .local _ .vmem, ⟨4, _⟩ => ⟨S64x16, .f32⟩
  | .local _ .vmem, ⟨5, _⟩ => ⟨S16, .f32⟩
  | .local _ .vmem, ⟨6, _⟩ => ⟨S4x8192x4, .bf16⟩
  | .local _ .vmem, ⟨7, _⟩ => ⟨S4x8192x4, .bf16⟩
  | .local _ .vmem, ⟨8, _⟩ => ⟨S128x4096, .bf16⟩
  | .local _ .vmem, ⟨9, _⟩ => ⟨S512x4096, .bf16⟩
  | .local _ .vmem, ⟨10, _⟩ => ⟨S512x4096, .bf16⟩
  | .local _ .vmem, ⟨11, _⟩ => ⟨S1x512, .f32⟩
  | .local _ .vmem, ⟨12, _⟩ => ⟨S1x512, .f32⟩
  | .local _ .vmem, ⟨13, _⟩ => ⟨S128x512, .f32⟩
  | .local _ .vmem, ⟨14, _⟩ => ⟨S128x512, .f32⟩
  | _, _ => ⟨S8x16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8192x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x8192x4 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S128x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S8192x16_S8192x16_0_0 : ∀ a, (![0, 0] : Fin 2 → Nat) a + S8192x16.size a ≤ S8192x16.size a
  h_S8192x16 : 0 < S8192x16.numel
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S64_S64_0 : ∀ a, (![0] : Fin 1 → Nat) a + S64.size a ≤ S64.size a
  h_S64 : 0 < S64.numel
  shapeCasts_S64_S1x64 : S64.ShapeCasts S1x64
  broadcasts_S1x64_S8192x64 : S1x64.Broadcasts S8192x64
  inb_S64x16_S64x16_0_0 : ∀ a, (![0, 0] : Fin 2 → Nat) a + S64x16.size a ≤ S64x16.size a
  h_S64x16 : 0 < S64x16.numel
  inb_S16_S16_0 : ∀ a, (![0] : Fin 1 → Nat) a + S16.size a ≤ S16.size a
  h_S16 : 0 < S16.numel
  shapeCasts_S16_S1x16 : S16.ShapeCasts S1x16
  broadcasts_S1x16_S8192x16 : S1x16.Broadcasts S8192x16
  slices_S8192x16_o0_0_S8192x4 : S8192x16.Slices ![0, 0] S8192x4
  inb_S4x8192x4_S1x8192x4_0_0_0 : ∀ a, (![0, 0, 0] : Fin 3 → Nat) a + S1x8192x4.size a ≤ S4x8192x4.size a
  h_S1x8192x4 : 0 < S1x8192x4.numel
  shapeCasts_S1x8192x4_S8192x4 : S1x8192x4.ShapeCasts S8192x4
  shapeCasts_S8192x4_S1x8192x4 : S8192x4.ShapeCasts S1x8192x4
  packedbf16_S4x8192x4_S1x8192x4_0_0_0 : (Rect.unit (s := S4x8192x4) ![0, 0, 0] S1x8192x4.size inb_S4x8192x4_S1x8192x4_0_0_0).PackedRows (EltTy.packing .bf16)
  slices_S8192x16_o0_4_S8192x4 : S8192x16.Slices ![0, 4] S8192x4
  inb_S4x8192x4_S1x8192x4_1_0_0 : ∀ a, (![1, 0, 0] : Fin 3 → Nat) a + S1x8192x4.size a ≤ S4x8192x4.size a
  packedbf16_S4x8192x4_S1x8192x4_1_0_0 : (Rect.unit (s := S4x8192x4) ![1, 0, 0] S1x8192x4.size inb_S4x8192x4_S1x8192x4_1_0_0).PackedRows (EltTy.packing .bf16)
  slices_S8192x16_o0_8_S8192x4 : S8192x16.Slices ![0, 8] S8192x4
  inb_S4x8192x4_S1x8192x4_2_0_0 : ∀ a, (![2, 0, 0] : Fin 3 → Nat) a + S1x8192x4.size a ≤ S4x8192x4.size a
  packedbf16_S4x8192x4_S1x8192x4_2_0_0 : (Rect.unit (s := S4x8192x4) ![2, 0, 0] S1x8192x4.size inb_S4x8192x4_S1x8192x4_2_0_0).PackedRows (EltTy.packing .bf16)
  slices_S8192x16_o0_12_S8192x4 : S8192x16.Slices ![0, 12] S8192x4
  inb_S4x8192x4_S1x8192x4_3_0_0 : ∀ a, (![3, 0, 0] : Fin 3 → Nat) a + S1x8192x4.size a ≤ S4x8192x4.size a
  packedbf16_S4x8192x4_S1x8192x4_3_0_0 : (Rect.unit (s := S4x8192x4) ![3, 0, 0] S1x8192x4.size inb_S4x8192x4_S1x8192x4_3_0_0).PackedRows (EltTy.packing .bf16)
  shapeCasts_S4x1048576x4_S4096x4096 : S4x1048576x4.ShapeCasts S4096x4096
  shapeCasts_S8x16x4096_S128x4096 : S8x16x4096.ShapeCasts S128x4096
  shapeCasts_S4096_S1x4096 : S4096.ShapeCasts S1x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  inb_S128x512_S128x512_0_0 : ∀ a, (![0, 0] : Fin 2 → Nat) a + S128x512.size a ≤ S128x512.size a
  h_S128x512 : 0 < S128x512.numel
  shapeCasts_S128x4096_S8x16x4096 : S128x4096.ShapeCasts S8x16x4096
  dot_S8192x16_S16x64_S8192x64_1_0_0_1_n_n_wf : DotDims.WF S8192x16 S16x64 S8192x64 [1] [0] [0] [1] [] []
  dot_S8192x64_S64x16_S8192x16_1_0_0_1_n_n_wf : DotDims.WF S8192x64 S64x16 S8192x16 [1] [0] [0] [1] [] []
  dot_S128x4096_S512x4096_S128x512_1_1_0_0_n_n_wf : DotDims.WF S128x4096 S512x4096 S128x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x16.size a ≤ S1048576x16.size a
  hwx0_0 : ∀ i : grid0.Coords, EltTy.bits .f32 = 32 ∨ (Rect.block (s := S1048576x16) S8192x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x16.size a ≤ S64x16.size a
  hwx0_3 : ∀ i : grid0.Coords, EltTy.bits .f32 = 32 ∨ (Rect.block (s := S64x16) S64x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16.size a ≤ S16.size a
  hwx0_4 : ∀ i : grid0.Coords, EltTy.bits .f32 = 32 ∨ (Rect.block (s := S16) S16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x8192x4.size a ≤ S4x1048576x4.size a
  hwx0_5 : ∀ i : grid0.Coords, EltTy.bits .bf16 = 32 ∨ (Rect.block (s := S4x1048576x4) S4x8192x4.size (cc0_transform_5 i) (hinb0_5 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S128x4096.size a
  hwx1_0 : ∀ i : grid1.Coords, EltTy.bits .bf16 = 32 ∨ (Rect.block (s := S128x4096) S128x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .bf16 = 32 ∨ (Rect.block (s := S4096x4096) S512x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x4096.size a
  hwx1_2 : ∀ i : grid1.Coords, EltTy.bits .f32 = 32 ∨ (Rect.block (s := S1x4096) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x512.size a ≤ S128x4096.size a
  hwx1_3 : ∀ i : grid1.Coords, EltTy.bits .f32 = 32 ∨ (Rect.block (s := S128x4096) S128x512.size (cc1_transform_3 i) (hinb1_3 i)).WholeWords (EltTy.packing .f32)

variable [Facts₀]

def dot_S8192x16_S16x64_S8192x64_1_0_0_1_n_n : DotDims S8192x16 S16x64 S8192x64 where
  lhsContracting := [1]
  rhsContracting := [0]
  lhsNonContracting := [0]
  rhsNonContracting := [1]
  lhsBatch := []
  rhsBatch := []
  wf := dot_S8192x16_S16x64_S8192x64_1_0_0_1_n_n_wf
def dot_S8192x64_S64x16_S8192x16_1_0_0_1_n_n : DotDims S8192x64 S64x16 S8192x16 where
  lhsContracting := [1]
  rhsContracting := [0]
  lhsNonContracting := [0]
  rhsNonContracting := [1]
  lhsBatch := []
  rhsBatch := []
  wf := dot_S8192x64_S64x16_S8192x16_1_0_0_1_n_n_wf
def dot_S128x4096_S512x4096_S128x512_1_1_0_0_n_n : DotDims S128x4096 S512x4096 S128x512 where
  lhsContracting := [1]
  rhsContracting := [1]
  lhsNonContracting := [0]
  rhsNonContracting := [0]
  lhsBatch := []
  rhsBatch := []
  wf := dot_S128x4096_S512x4096_S128x512_1_1_0_0_n_n_wf

abbrev win0_0 : Pipeline.Window sig grid0 :=
  Pipeline.Window.ofSpec (Memref.whole main_arg1) S8192x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S4x8192x4.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v3) S128x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S128x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x16x4096 : Shape := ⟨3, ![8, 16, 4096]⟩
abbrev S1048576x16 : Shape := ⟨2, ![1048576, 16]⟩
abbrev S16x64 : Shape := ⟨2, ![16, 64]⟩
abbrev S64 : Shape := ⟨1, ![64]⟩
abbrev S64x16 : Shape := ⟨2, ![64, 16]⟩
abbrev S16 : Shape := ⟨1, ![16]⟩
abbrev S4096 : Shape := ⟨1, ![4096]⟩
abbrev S1048576x64 : Shape := ⟨2, ![1048576, 64]⟩
abbrev S1x64 : Shape := ⟨2, ![1, 64]⟩
abbrev S_ : Shape := ⟨0, ![]⟩
abbrev S1x16 : Shape := ⟨2, ![1, 16]⟩
abbrev S1048576x4x4 : Shape := ⟨3, ![1048576, 4, 4]⟩
abbrev S4x1048576x4 : Shape := ⟨3, ![4, 1048576, 4]⟩
abbrev S16777216 : Shape := ⟨1, ![16777216]⟩
abbrev S4096x4096 : Shape := ⟨2, ![4096, 4096]⟩
abbrev S1x1x4096 : Shape := ⟨3, ![1, 1, 4096]⟩

abbrev nBuf : Space → Nat
  | .hbm => 26
  | .vmem => 0
  | .smem => 0
  | _ => 0

abbrev bufTy : (tb : Table) → Fin (tcTables nBuf tb) → BufTy
  | .hbm, ⟨0, _⟩ => ⟨S8x16x4096, .f32⟩
  | .hbm, ⟨1, _⟩ => ⟨S1048576x16, .f32⟩
  | .hbm, ⟨2, _⟩ => ⟨S16x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S4096, .f32⟩
  | .hbm, ⟨7, _⟩ => ⟨S1048576x64, .f32⟩
  | .hbm, ⟨8, _⟩ => ⟨S1x64, .f32⟩
  | .hbm, ⟨9, _⟩ => ⟨S1048576x64, .f32⟩
  | .hbm, ⟨10, _⟩ => ⟨S1048576x64, .f32⟩
  | .hbm, ⟨11, _⟩ => ⟨S_, .f32⟩
  | .hbm, ⟨12, _⟩ => ⟨S1048576x64, .f32⟩
  | .hbm, ⟨13, _⟩ => ⟨S1048576x64, .f32⟩
  | .hbm, ⟨14, _⟩ => ⟨S1048576x16, .f32⟩
  | .hbm, ⟨15, _⟩ => ⟨S1x16, .f32⟩
  | .hbm, ⟨16, _⟩ => ⟨S1048576x16, .f32⟩
  | .hbm, ⟨17, _⟩ => ⟨S1048576x16, .f32⟩
  | .hbm, ⟨18, _⟩ => ⟨S1048576x4x4, .f32⟩
  | .hbm, ⟨19, _⟩ => ⟨S4x1048576x4, .f32⟩
  | .hbm, ⟨20, _⟩ => ⟨S16777216, .f32⟩
  | .hbm, ⟨21, _⟩ => ⟨S4096x4096, .f32⟩
  | .hbm, ⟨22, _⟩ => ⟨S8x16x4096, .f32⟩
  | .hbm, ⟨23, _⟩ => ⟨S1x1x4096, .f32⟩
  | .hbm, ⟨24, _⟩ => ⟨S8x16x4096, .f32⟩
  | .hbm, ⟨25, _⟩ => ⟨S8x16x4096, .f32⟩
  | _, _ => ⟨S8x16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  bcast_S_S1048576x64 : S_.BroadcastsInDim S1048576x64 (![] : Fin 0 → Fin S1048576x64.rank)
  bcast_S16_S1x16_1 : S16.BroadcastsInDim S1x16 (![1] : Fin 1 → Fin S1x16.rank)
  bcast_S1x16_S1048576x16_0_1 : S1x16.BroadcastsInDim S1048576x16 (![0, 1] : Fin 2 → Fin S1048576x16.rank)
  shapeCasts_S1048576x16_S1048576x4x4 : S1048576x16.ShapeCasts S1048576x4x4
  transposes_S1048576x4x4_S4x1048576x4_1_0_2 : S1048576x4x4.Transposes [1, 0, 2] S4x1048576x4
  shapeCasts_S4x1048576x4_S16777216 : S4x1048576x4.ShapeCasts S16777216
  shapeCasts_S16777216_S4096x4096 : S16777216.ShapeCasts S4096x4096
  bcast_S4096_S1x1x4096_2 : S4096.BroadcastsInDim S1x1x4096 (![2] : Fin 1 → Fin S1x1x4096.rank)
  bcast_S1x1x4096_S8x16x4096_0_1_2 : S1x1x4096.BroadcastsInDim S8x16x4096 (![0, 1, 2] : Fin 3 → Fin S8x16x4096.rank)
  dot_S1048576x16_S16x64_S1048576x64_1_0_0_1_n_n_wf : DotDims.WF S1048576x16 S16x64 S1048576x64 [1] [0] [0] [1] [] []
  dot_S1048576x64_S64x16_S1048576x16_1_0_0_1_n_n_wf : DotDims.WF S1048576x64 S64x16 S1048576x16 [1] [0] [0] [1] [] []
  dot_S8x16x4096_S4096x4096_S8x16x4096_2_1_01_0_n_n_wf : DotDims.WF S8x16x4096 S4096x4096 S8x16x4096 [2] [1] [0, 1] [0] [] []

variable [Facts₀]

def dot_S1048576x16_S16x64_S1048576x64_1_0_0_1_n_n : DotDims S1048576x16 S16x64 S1048576x64 where
  lhsContracting := [1]
  rhsContracting := [0]
  lhsNonContracting := [0]
  rhsNonContracting := [1]
  lhsBatch := []
  rhsBatch := []
  wf := dot_S1048576x16_S16x64_S1048576x64_1_0_0_1_n_n_wf
def dot_S1048576x64_S64x16_S1048576x16_1_0_0_1_n_n : DotDims S1048576x64 S64x16 S1048576x16 where
  lhsContracting := [1]
  rhsContracting := [0]
  lhsNonContracting := [0]
  rhsNonContracting := [1]
  lhsBatch := []
  rhsBatch := []
  wf := dot_S1048576x64_S64x16_S1048576x16_1_0_0_1_n_n_wf
def dot_S8x16x4096_S4096x4096_S8x16x4096_2_1_01_0_n_n : DotDims S8x16x4096 S4096x4096 S8x16x4096 where
  lhsContracting := [2]
  rhsContracting := [1]
  lhsNonContracting := [0, 1]
  rhsNonContracting := [0]
  lhsBatch := []
  rhsBatch := []
  wf := dot_S8x16x4096_S4096x4096_S8x16x4096_2_1_01_0_n_n_wf

class Facts : Prop extends Facts₀ where

variable [Facts]
-- ==== Proof.KernelRun.lean ====
/-
  The idealized kernel program's run with its RESULT named.  @main is two pallas_calls among host reshapes; the
  generated frame certificate walks it segment by segment and records the buffer contents at every boundary
  (`Gen.W0` … `Gen.W4`), but states of the final state only that the arguments are unchanged.  The same walk
  also leaves every unscoped buffer — the result `main_v6` among them — at the last boundary's contents
  `Gen.W4`; this module states that: after every weakly fair execution the result buffer holds
  `Gen.W4 m ρ c main_v6` and the seven arguments hold what they were launched with.
-/
import proofs.«110481_j13211319403237_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    segment boundary's contents and the argument arrays as launched. -/
theorem run_result : θ_run defs (onTc (τ := τ) (main (F := F))) ⟨m, fun _ => 0, ρ⟩ (fun r => ∀ c : Dev nD,
      r.2.mem ((c.tc : Thread nD τ).loc main_v6) = W4 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v6 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.RunValue

end
-- ==== Proof.LibReshapeCompose.lean ====
/-
  Two small general facts about shapes and reshapes, at any extents and any element type.

  * `shapeCast_comp`: a reshape of a reshape is the one reshape — all three read the operand at the index with the
    same row-major position.
  * `idx3_lt0`, `idx3_lt1`, `idx3_lt2`: a rank-3 index's coordinates are below the extents, with the extents written
    as the naturals themselves (so that `omega` can use them), as Lib/ValueIdx.lean's `idx2_lt0`, `idx2_lt1` do at rank 2.
-/
import Idealize.ShloMosaic.Lib.ValueIdx

noncomputable section

namespace Cert.VqLinear

open Idealize.ShloMosaic

/-- A rank-3 index's first coordinate is below the first extent. -/
theorem idx3_lt0 {n0 n1 n2 : Nat} (j : (⟨3, ![n0, n1, n2]⟩ : Shape).Idx) : (j 0).val < n0 := (j 0).isLt
/-- A rank-3 index's second coordinate is below the second extent. -/
theorem idx3_lt1 {n0 n1 n2 : Nat} (j : (⟨3, ![n0, n1, n2]⟩ : Shape).Idx) : (j 1).val < n1 := (j 1).isLt
/-- A rank-3 index's third coordinate is below the third extent. -/
theorem idx3_lt2 {n0 n1 n2 : Nat} (j : (⟨3, ![n0, n1, n2]⟩ : Shape).Idx) : (j 2).val < n2 := (j 2).isLt

/-- A reshape of a reshape is the reshape: both read the operand at the index of the same row-major position. -/
theorem shapeCast_comp {s u t : Shape} {α : Type} (v : s.Idx → α) (h : s.ShapeCasts u) (h' : u.ShapeCasts t)
    (h'' : s.ShapeCasts t) : shapeCast t (shapeCast u v h) h' = shapeCast t v h'' :=
  funext fun i => congrArg v (by
    show Shape.reshapeEquiv _ (Shape.reshapeEquiv _ i) = Shape.reshapeEquiv _ i
    rw [Shape.reshapeEquiv_reshapeEquiv])

end Cert.VqLinear

end
-- ==== Proof.Spec.lean ====
/-
  The mathematics both programs compute, as functions of the argument arrays over the extended reals.

  * `decRow`: one row of the decoder MLP.  A latent row `z ∈ ℝ̄¹⁶` goes to
    `h_j = max(Σ_k z_k · w1[k,j] + b1[j], 0)` (64 hidden units, ReLU) and then to
    `Σ_j h_j · w2[j,c] + b2[c]`, for each of the 16 output columns `c`.
  * `decoded`: the decoded codebook laid out group-major, `[4, 1048576, 4]`: entry `(g, n, s)` is column
    `4g + s` of the decoded row of latent row `n`.  Read row-major this is the flat weight vector, and its
    reshape to `[4096, 4096]` is the dense weight matrix `W`.
  * `linear`: `X · Wᵀ + bias` for `X : [128, 4096]`, `W : [4096, 4096]` and a bias row `[1, 4096]`:
    entry `(r, o)` is `Σ_k X[r,k] · W[o,k] + bias[0,o]`.
  * `result`: the same with the 128 rows seen as `[8, 16]`: entry `(b, s, o)` is
    `Σ_k x[b,s,k] · W[o,k] + bias[o]`.
  Nothing here mentions a program; the other modules show each program computes these.
-/
import Idealize.ShloMosaic.PureOps.Ideal
import Idealize.ShloMosaic.Lib.ValueIdx
import proofs.«110481_j13211319403237_2_alg».proof.Proof.LibReshapeCompose

noncomputable section

open scoped BigOperators

namespace Cert.VqLinear

open Idealize.ShloMosaic Idealize.ShloMosaic.ValueIdx

/-- One row of the decoder: 16 latents → 64 hidden units with ReLU → column `c` of the 16 outputs. -/
def decRow (z : Fin 16 → EReal) (w1 : (⟨2, ![16, 64]⟩ : Shape).Idx → EReal) (b1 : (⟨1, ![64]⟩ : Shape).Idx → EReal)
    (w2 : (⟨2, ![64, 16]⟩ : Shape).Idx → EReal) (b2 : (⟨1, ![16]⟩ : Shape).Idx → EReal) (c : Fin 16) : EReal :=
  (∑ j : Fin 64, max ((∑ k : Fin 16, z k * w1 (ix2 k j)) + b1 (ix1 j)) (Ideal.ofBits .f32 0x00000000#32) * w2 (ix2 j c)) + b2 (ix1 c)

/-- The decoded codebook, group-major: entry `(g, n, s)` is column `4g + s` of latent row `n`'s decoded row. -/
def decoded (vq : (⟨2, ![1048576, 16]⟩ : Shape).Idx → EReal) (w1 : (⟨2, ![16, 64]⟩ : Shape).Idx → EReal)
    (b1 : (⟨1, ![64]⟩ : Shape).Idx → EReal) (w2 : (⟨2, ![64, 16]⟩ : Shape).Idx → EReal) (b2 : (⟨1, ![16]⟩ : Shape).Idx → EReal) :
    (⟨3, ![4, 1048576, 4]⟩ : Shape).Idx → EReal := fun i =>
  decRow (fun k => vq (ix2 (⟨(i 1).val, idx3_lt1 i⟩ : Fin 1048576) k)) w1 b1 w2 b2
    ⟨4 * (i 0).val + (i 2).val, by have h0 := idx3_lt0 i; have h2 := idx3_lt2 i; omega⟩

/-- `X · Wᵀ + bias` on 128 rows. -/
def linear (X : (⟨2, ![128, 4096]⟩ : Shape).Idx → EReal) (W : (⟨2, ![4096, 4096]⟩ : Shape).Idx → EReal)
    (B : (⟨2, ![1, 4096]⟩ : Shape).Idx → EReal) : (⟨2, ![128, 4096]⟩ : Shape).Idx → EReal := fun i =>
  (∑ k : Fin 4096, X (ix2 (⟨(i 0).val, idx2_lt0 i⟩ : Fin 128) k) * W (ix2 (⟨(i 1).val, idx2_lt1 i⟩ : Fin 4096) k))
    + B (ix2 (0 : Fin 1) (⟨(i 1).val, idx2_lt1 i⟩ : Fin 4096))

/-- `x · Wᵀ + bias` on the `[8, 16]` batch of rows. -/
def result (x : (⟨3, ![8, 16, 4096]⟩ : Shape).Idx → EReal) (W : (⟨2, ![4096, 4096]⟩ : Shape).Idx → EReal)
    (bias : (⟨1, ![4096]⟩ : Shape).Idx → EReal) : (⟨3, ![8, 16, 4096]⟩ : Shape).Idx → EReal := fun i =>
  (∑ k : Fin 4096, x (ix3 (⟨(i 0).val, idx3_lt0 i⟩ : Fin 8) (⟨(i 1).val, idx3_lt1 i⟩ : Fin 16) k)
      * W (ix2 (⟨(i 2).val, idx3_lt2 i⟩ : Fin 4096) k))
    + bias (ix1 (⟨(i 2).val, idx3_lt2 i⟩ : Fin 4096))

end Cert.VqLinear

end
-- ==== Proof.RefValue.lean ====
/-
  The reference computes `result x (reshape (decoded …)) bias`.

  Its program is: two host matrix products with a ReLU between them (the decoder, one row per latent row), the
  reshape `[N,16] → [N,4,4]`, the transpose to `[4,N,4]`, two reshapes down to the `[4096,4096]` weight, then the
  contraction of `x` with the weight's second axis and the bias.  Read at an index: the transposed array at
  `(g, n, s)` is the decoder's row `n` at column `4g + s` — `decoded` —; the two reshapes are one reshape; and the
  last contraction is `result`.
-/
import proofs.«110481_j13211319403237_2_alg».proof.Proof.Gen.ReferenceIdeal.Read
import proofs.«110481_j13211319403237_2_alg».proof.Proof.Spec

noncomputable section

open scoped BigOperators

namespace Cert.VqLinear.Ref

open Cert.ReferenceIdeal Cert.ReferenceIdeal.Gen Cert.ReferenceIdeal.Read Cert.VqLinear
open Idealize.ShloMosaic Idealize.ShloMosaic.ValueIdx

variable (x0 : (⟨S8x16x4096, .f32⟩ : BufTy).Contents (Elt Ideal)) (x1 : (⟨S1048576x16, .f32⟩ : BufTy).Contents (Elt Ideal))
  (x2 : (⟨S16x64, .f32⟩ : BufTy).Contents (Elt Ideal)) (x3 : (⟨S64, .f32⟩ : BufTy).Contents (Elt Ideal))
  (x4 : (⟨S64x16, .f32⟩ : BufTy).Contents (Elt Ideal)) (x5 : (⟨S16, .f32⟩ : BufTy).Contents (Elt Ideal))
  (x6 : (⟨S4096, .f32⟩ : BufTy).Contents (Elt Ideal))

/-- The hidden layer at `(n, j)`: `max(Σ_k vq[n,k]·w1[k,j] + b1[j], 0)`. -/
theorem hidden_apply (n : Fin 1048576) (j : Fin 64) :
    val_main_v4 (F := Ideal) x1 x2 x3 (ix2 n j)
      = max ((∑ k : Fin 16, x1 (ix2 n k) * x2 (ix2 k j)) + x3 (ix1 j)) (Ideal.ofBits .f32 0x00000000#32) := by
  rw [val_main_v4_apply, val_main_v3_apply, val_main_v0_apply, val_main_v2_apply, val_main_v1_apply,
    val_main_call0_v0_apply, val_main_call0_cst_apply]
  have e1 : ∀ k : Fin 16, lidx_main_v0 (ix2 n j) k = ix2 n k := fun k => funext fun a => by
    match a with | ⟨0, _⟩ => rfl | ⟨1, _⟩ => rfl
  have e2 : ∀ k : Fin 16, ridx_main_v0 (ix2 n j) k = ix2 k j := fun k => funext fun a => by
    match a with | ⟨0, _⟩ => rfl | ⟨1, _⟩ => rfl
  have e3 : idx_main_v1 (idx_main_v2 (ix2 n j)) = ix1 j := funext fun a => by
    match a with | ⟨0, _⟩ => rfl
  simp only [e1, e2, e3]
  rfl

/-- The decoder's output at `(n, c)` is `decRow` of latent row `n`. -/
theorem decoder_apply (n : Fin 1048576) (c : Fin 16) :
    val_main_v8 (F := Ideal) x1 x2 x3 x4 x5 (ix2 n c) = decRow (fun k => x1 (ix2 n k)) x2 x3 x4 x5 c := by
  rw [val_main_v8_apply, val_main_v5_apply, val_main_v7_apply, val_main_v6_apply]
  have e1 : ∀ j : Fin 64, lidx_main_v5 (ix2 n c) j = ix2 n j := fun j => funext fun a => by
    match a with | ⟨0, _⟩ => rfl | ⟨1, _⟩ => rfl
  have e2 : ∀ j : Fin 64, ridx_main_v5 (ix2 n c) j = ix2 j c := fun j => funext fun a => by
    match a with | ⟨0, _⟩ => rfl | ⟨1, _⟩ => rfl
  have e3 : idx_main_v6 (idx_main_v7 (ix2 n c)) = ix1 c := funext fun a => by
    match a with | ⟨0, _⟩ => rfl
  simp only [e1, e2, e3, hidden_apply]
  rfl

/-- The transposed `[4, N, 4]` array is `decoded`. -/
theorem transposed_eq : val_main_v10 (F := Ideal) x1 x2 x3 x4 x5 = decoded x1 x2 x3 x4 x5 := by
  funext i
  obtain ⟨g, n, s, rfl⟩ : ∃ (g : Fin 4) (n : Fin 1048576) (s : Fin 4), i = ix3 g n s := ⟨i 0, i 1, i 2, eq_ix3 i⟩
  rw [val_main_v10_apply, val_main_v9_apply]
  have e : idx_main_v9 (idx_main_v10 (ix3 g n s))
      = ix2 n (⟨4 * g.val + s.val, by have := g.isLt; have := s.isLt; omega⟩ : Fin 16) := funext fun a => Fin.ext (by
    have hg := g.isLt; have hs := s.isLt; have hn := n.isLt
    match a with
    | ⟨0, _⟩ => show ((n.val * 4 + g.val) * 4 + s.val) / 16 = n.val; omega
    | ⟨1, _⟩ => show ((n.val * 4 + g.val) * 4 + s.val) % 16 = 4 * g.val + s.val; omega)
  rw [e, decoder_apply]
  rfl

/-- The weight matrix is the reshape of `decoded`. -/
theorem weight_eq (h : S4x1048576x4.ShapeCasts S4096x4096) :
    val_main_v12 (F := Ideal) x1 x2 x3 x4 x5 = shapeCast S4096x4096 (decoded x1 x2 x3 x4 x5) h := by
  unfold val_main_v12 val_main_v11
  rw [transposed_eq]
  exact shapeCast_comp _ _ _ h

/-- THE REFERENCE'S RESULT is `result` of `x`, the reshaped decoded codebook and the bias. -/
theorem result_eq (h : S4x1048576x4.ShapeCasts S4096x4096) :
    val_main_v16 (F := Ideal) x0 x1 x2 x3 x4 x5 x6
      = result x0 (shapeCast S4096x4096 (decoded x1 x2 x3 x4 x5) h) x6 := by
  funext i
  obtain ⟨b, s, o, rfl⟩ : ∃ (b : Fin 8) (s : Fin 16) (o : Fin 4096), i = ix3 b s o := ⟨i 0, i 1, i 2, eq_ix3 i⟩
  rw [val_main_v16_apply, val_main_v13_apply, val_main_v15_apply, val_main_v14_apply, weight_eq _ _ _ _ _ h]
  have e1 : ∀ k : Fin 4096, lidx_main_v13 (ix3 b s o) k = ix3 b s k := fun k => funext fun a => by
    match a with | ⟨0, _⟩ => rfl | ⟨1, _⟩ => rfl | ⟨2, _⟩ => rfl
  have e2 : ∀ k : Fin 4096, ridx_main_v13 (ix3 b s o) k = ix2 o k := fun k => funext fun a => by
    match a with | ⟨0, _⟩ => rfl | ⟨1, _⟩ => rfl
  have e3 : idx_main_v14 (idx_main_v15 (ix3 b s o)) = ix1 o := funext fun a => by
    match a with | ⟨0, _⟩ => rfl
  simp only [e1, e2, e3]
  rfl

end Cert.VqLinear.Ref

end
-- ==== Proof.Decode.lean ====
/-
  The first kernel (the decoder) read as values.

  At a grid point the body loads an 8192-row block of latents and the whole of `w1, b1, w2, b2`, computes for
  every row the two matrix products with the ReLU between them — `decRow` of that row — and stores the 16 output
  columns as four slabs of 4 columns: slab `g` of the `[4, 8192, 4]` output block holds columns `4g … 4g+3`.
  So the block's entry `(g, r, s)` is `decRow (row r of the latent block) (4g + s)`.  The latent block at point `t`
  is rows `8192·t …` of the latent array and the output block is rows `8192·t …` of axis 1 of the output array, so
  what point `t` writes back is block `t` of `decoded`; the 128 blocks cover the array, which therefore ends as
  `decoded` of the five argument arrays.
-/
import proofs.«110481_j13211319403237_2_alg».proof.Proof.Gen.KernelIdeal.Frame
import proofs.«110481_j13211319403237_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.VqLinear.Decode

open Cert.KernelIdeal Cert.KernelIdeal.Gen Cert.VqLinear
open Idealize.ShloMosaic Idealize.ShloMosaic.TcCoe Idealize.ShloMosaic.ValueIdx Idealize.SL.Sem

/-! ## The two matrix products of the body, at an index -/

theorem matmul_in_lhs_free (i : S8192x64.Idx) (q : dot_S8192x16_S16x64_S8192x64_1_0_0_1_n_n.contr.Idx) : (dot_S8192x16_S16x64_S8192x64_1_0_0_1_n_n.lhsIdx i q 0).val = (i 0).val := by
  unfold DotDims.lhsIdx
  rw [dif_neg (show ¬(0 : Fin S8192x16.rank) ∈ dot_S8192x16_S16x64_S8192x64_1_0_0_1_n_n.lhsBatch by decide),
    dif_pos (show (0 : Fin S8192x16.rank) ∈ dot_S8192x16_S16x64_S8192x64_1_0_0_1_n_n.lhsNonContracting by decide)]
  rfl
theorem matmul_in_rhs_free (i : S8192x64.Idx) (q : dot_S8192x16_S16x64_S8192x64_1_0_0_1_n_n.contr.Idx) : (dot_S8192x16_S16x64_S8192x64_1_0_0_1_n_n.rhsIdx i q 1).val = (i 1).val := by
  unfold DotDims.rhsIdx
  rw [dif_neg (show ¬(1 : Fin S16x64.rank) ∈ dot_S8192x16_S16x64_S8192x64_1_0_0_1_n_n.rhsBatch by decide),
    dif_pos (show (1 : Fin S16x64.rank) ∈ dot_S8192x16_S16x64_S8192x64_1_0_0_1_n_n.rhsNonContracting by decide)]
  rfl

/-- `[8192,16] · [16,64]` into a zero accumulator: entry `(a, b)` is `Σ_k l[a,k] · r[k,b]`. -/
theorem matmul_in_apply (l : FVec Ideal S8192x16 .bf16) (r : FVec Ideal S16x64 .bf16) (a : Fin 8192) (b : Fin 64) :
    matmul dot_S8192x16_S16x64_S8192x64_1_0_0_1_n_n none l r (constant S8192x64 .f32 0x00000000#32) (ix2 a b)
      = ∑ k : Fin 16, l (ix2 a k) * r (ix2 k b) := by
  show FloatOps.matmul dot_S8192x16_S16x64_S8192x64_1_0_0_1_n_n none l r (constant S8192x64 .f32 0x00000000#32) (ix2 a b) = _
  rw [Ideal.matmul_constant_zero_apply, ← Equiv.sum_comp (contrEquiv1 dot_S8192x16_S16x64_S8192x64_1_0_0_1_n_n 16 rfl rfl).symm]
  refine Finset.sum_congr rfl fun k _ => ?_
  have hk := contrEquiv1_symm_val dot_S8192x16_S16x64_S8192x64_1_0_0_1_n_n 16 rfl rfl k
  have el : dot_S8192x16_S16x64_S8192x64_1_0_0_1_n_n.lhsIdx (ix2 a b) ((contrEquiv1 dot_S8192x16_S16x64_S8192x64_1_0_0_1_n_n 16 rfl rfl).symm k) = ix2 a k :=
    funext fun d => Fin.ext (by
      match d with
      | ⟨0, _⟩ => exact matmul_in_lhs_free _ _
      | ⟨1, _⟩ => exact (dot_S8192x16_S16x64_S8192x64_1_0_0_1_n_n.lhsIdx_val_of_single rfl _ _).trans hk)
  have er : dot_S8192x16_S16x64_S8192x64_1_0_0_1_n_n.rhsIdx (ix2 a b) ((contrEquiv1 dot_S8192x16_S16x64_S8192x64_1_0_0_1_n_n 16 rfl rfl).symm k) = ix2 k b :=
    funext fun d => Fin.ext (by
      match d with
      | ⟨1, _⟩ => exact matmul_in_rhs_free _ _
      | ⟨0, _⟩ => exact (dot_S8192x16_S16x64_S8192x64_1_0_0_1_n_n.rhsIdx_val_of_single rfl _ _).trans hk)
  rw [el, er]

theorem matmul_out_lhs_free (i : S8192x16.Idx) (q : dot_S8192x64_S64x16_S8192x16_1_0_0_1_n_n.contr.Idx) : (dot_S8192x64_S64x16_S8192x16_1_0_0_1_n_n.lhsIdx i q 0).val = (i 0).val := by
  unfold DotDims.lhsIdx
  rw [dif_neg (show ¬(0 : Fin S8192x64.rank) ∈ dot_S8192x64_S64x16_S8192x16_1_0_0_1_n_n.lhsBatch by decide),
    dif_pos (show (0 : Fin S8192x64.rank) ∈ dot_S8192x64_S64x16_S8192x16_1_0_0_1_n_n.lhsNonContracting by decide)]
  rfl
theorem matmul_out_rhs_free (i : S8192x16.Idx) (q : dot_S8192x64_S64x16_S8192x16_1_0_0_1_n_n.contr.Idx) : (dot_S8192x64_S64x16_S8192x16_1_0_0_1_n_n.rhsIdx i q 1).val = (i 1).val := by
  unfold DotDims.rhsIdx
  rw [dif_neg (show ¬(1 : Fin S64x16.rank) ∈ dot_S8192x64_S64x16_S8192x16_1_0_0_1_n_n.rhsBatch by decide),
    dif_pos (show (1 : Fin S64x16.rank) ∈ dot_S8192x64_S64x16_S8192x16_1_0_0_1_n_n.rhsNonContracting by decide)]
  rfl

/-- `[8192,64] · [64,16]` into a zero accumulator: entry `(a, b)` is `Σ_j l[a,j] · r[j,b]`. -/
theorem matmul_out_apply (l : FVec Ideal S8192x64 .bf16) (r : FVec Ideal S64x16 .bf16) (a : Fin 8192) (b : Fin 16) :
    matmul dot_S8192x64_S64x16_S8192x16_1_0_0_1_n_n none l r (constant S8192x16 .f32 0x00000000#32) (ix2 a b)
      = ∑ k : Fin 64, l (ix2 a k) * r (ix2 k b) := by
  show FloatOps.matmul dot_S8192x64_S64x16_S8192x16_1_0_0_1_n_n none l r (constant S8192x16 .f32 0x00000000#32) (ix2 a b) = _
  rw [Ideal.matmul_constant_zero_apply, ← Equiv.sum_comp (contrEquiv1 dot_S8192x64_S64x16_S8192x16_1_0_0_1_n_n 64 rfl rfl).symm]
  refine Finset.sum_congr rfl fun k _ => ?_
  have hk := contrEquiv1_symm_val dot_S8192x64_S64x16_S8192x16_1_0_0_1_n_n 64 rfl rfl k
  have el : dot_S8192x64_S64x16_S8192x16_1_0_0_1_n_n.lhsIdx (ix2 a b) ((contrEquiv1 dot_S8192x64_S64x16_S8192x16_1_0_0_1_n_n 64 rfl rfl).symm k) = ix2 a k :=
    funext fun d => Fin.ext (by
      match d with
      | ⟨0, _⟩ => exact matmul_out_lhs_free _ _
      | ⟨1, _⟩ => exact (dot_S8192x64_S64x16_S8192x16_1_0_0_1_n_n.lhsIdx_val_of_single rfl _ _).trans hk)
  have er : dot_S8192x64_S64x16_S8192x16_1_0_0_1_n_n.rhsIdx (ix2 a b) ((contrEquiv1 dot_S8192x64_S64x16_S8192x16_1_0_0_1_n_n 64 rfl rfl).symm k) = ix2 k b :=
    funext fun d => Fin.ext (by
      match d with
      | ⟨1, _⟩ => exact matmul_out_rhs_free _ _
      | ⟨0, _⟩ => exact (dot_S8192x64_S64x16_S8192x16_1_0_0_1_n_n.rhsIdx_val_of_single rfl _ _).trans hk)
  rw [el, er]

/-! ## The body's arithmetic: every row is `decRow` -/

/-- The decoded block before it is cut into slabs: entry `(r, c)` is `decRow` of row `r` of the latent block. -/
theorem pay_apply (x0 : Vec Ideal S8192x16 .f32) (x1 : Vec Ideal S16x64 .f32) (x2 : Vec Ideal S64 .f32)
    (x3 : Vec Ideal S64x16 .f32) (x4 : Vec Ideal S16 .f32) (r : Fin 8192) (c : Fin 16) :
    k0_pay2 (F := Ideal) x0 x1 x2 x3 x4 (ix2 r c) = decRow (fun k => x0 (ix2 r k)) x1 x2 x3 x4 c := by
  unfold k0_pay2
  show matmul (F := Ideal) dot_S8192x64_S64x16_S8192x16_1_0_0_1_n_n none _ _ (constant S8192x16 .f32 0x00000000#32) (ix2 r c)
      + broadcastTo S8192x16 (shapeCast S1x16 x4 shapeCasts_S16_S1x16) broadcasts_S1x16_S8192x16 (ix2 r c) = _
  rw [matmul_out_apply, broadcastTo_1b_ab_apply, shapeCast_a_1a_apply]
  unfold decRow
  refine congrArg (· + x4 (ix1 c)) (Finset.sum_congr rfl fun j _ => ?_)
  refine congrArg (· * x3 (ix2 j c)) ?_
  show max (matmul (F := Ideal) dot_S8192x16_S16x64_S8192x64_1_0_0_1_n_n none _ _ (constant S8192x64 .f32 0x00000000#32) (ix2 r j)
      + broadcastTo S8192x64 (shapeCast S1x64 x2 shapeCasts_S64_S1x64) broadcasts_S1x64_S8192x64 (ix2 r j)) _ = _
  rw [matmul_in_apply, broadcastTo_1b_ab_apply, shapeCast_a_1a_apply]
  rfl

/-! ## The output block: four slabs of one decoded block -/

theorem zeros2 : (![0, 0] : Fin 2 → Nat) = fun _ => 0 := funext fun a => by fin_cases a <;> rfl
theorem zeros1 : (![0] : Fin 1 → Nat) = fun _ => 0 := funext fun a => by fin_cases a <;> rfl

/-- Columns `o … o+3` of a `[8192, 16]` array, stored as a `[1, 8192, 4]` slab: entry `(u, r, s)` is `(r, o + s)`. -/
theorem slab_apply (A : FVec Ideal S8192x16 .bf16) (o : Nat) (h : S8192x16.Slices ![0, o] S8192x4)
    (h' : S8192x4.ShapeCasts S1x8192x4) (u : Fin 1) (r : Fin 8192) (s : Fin 4) (k : Fin 16) (hk : k.val = o + s.val) :
    shapeCast S1x8192x4 (extractStridedSlice S8192x4 ![0, o] A h) h' (ix3 u r s) = A (ix2 r k) := by
  rw [shapeCast_ab_1ab_apply, slice2_axis1_apply o A h r s k hk]

/-- The row of the decoded block an output-block index reads, and its column: `(g, r, s) ↦ (r, 4g + s)`. -/
def rowOf (y : S4x8192x4.Idx) : Fin 8192 := ⟨(y 1).val, idx3_lt1 y⟩
def colOf (y : S4x8192x4.Idx) : Fin 16 := ⟨4 * (y 0).val + (y 2).val, by have h0 := idx3_lt0 y; have h2 := idx3_lt2 y; omega⟩

/-- WHAT THE BODY LEAVES in the output block, at `y = (g, r, s)`: `decRow` of latent row `r` at column `4g + s`. -/
theorem out_apply (x0 : Vec Ideal S8192x16 .f32) (x1 : Vec Ideal S16x64 .f32) (x2 : Vec Ideal S64 .f32)
    (x3 : Vec Ideal S64x16 .f32) (x4 : Vec Ideal S16 .f32) (y : S4x8192x4.Idx) :
    out0_5 (F := Ideal) x0 x1 x2 x3 x4 y = decRow (fun k => x0 (ix2 (rowOf y) k)) x1 x2 x3 x4 (colOf y) := by
  unfold out0_5
  simp only [View.ld_unit_zero (S := S8192x16) zeros2, View.ld_unit_zero (S := S16x64) zeros2, View.ld_unit_zero (S := S64) zeros1,
    View.ld_unit_zero (S := S64x16) zeros2, View.ld_unit_zero (S := S16) zeros1]
  refine (View.canon_apply_of_pieces (fun y : S4x8192x4.Idx => k0_pay2 (F := Ideal) x0 x1 x2 x3 x4 (ix2 (rowOf y) (colOf y))) _ ?_ y
    (cover0_5 _ _ _ _ y)).trans (pay_apply x0 x1 x2 x3 x4 (rowOf y) (colOf y))
  intro p hp x
  simp only [List.mem_cons, List.mem_singleton, List.not_mem_nil, or_false] at hp
  rcases hp with rfl | rfl | rfl | rfl
  · obtain ⟨u, r, s, rfl⟩ : ∃ (u : Fin 1) (r : Fin 8192) (s : Fin 4), x = ix3 u r s := ⟨x 0, x 1, x 2, eq_ix3 x⟩
    have hu : u.val = 0 := by omega
    refine (slab_apply (k0_pay2 (F := Ideal) x0 x1 x2 x3 x4) 12 slices_S8192x16_o0_12_S8192x4 shapeCasts_S8192x4_S1x8192x4 u r s
      ⟨12 + s.val, by omega⟩ rfl).trans (congrArg (k0_pay2 (F := Ideal) x0 x1 x2 x3 x4) ?_)
    funext a; apply Fin.ext
    match a with
    | ⟨0, _⟩ => show r.val = 0 + 1 * r.val; omega
    | ⟨1, _⟩ => show 12 + s.val = 4 * (3 + 1 * u.val) + (0 + 1 * s.val); omega
  · obtain ⟨u, r, s, rfl⟩ : ∃ (u : Fin 1) (r : Fin 8192) (s : Fin 4), x = ix3 u r s := ⟨x 0, x 1, x 2, eq_ix3 x⟩
    have hu : u.val = 0 := by omega
    refine (slab_apply (k0_pay2 (F := Ideal) x0 x1 x2 x3 x4) 8 slices_S8192x16_o0_8_S8192x4 shapeCasts_S8192x4_S1x8192x4 u r s
      ⟨8 + s.val, by omega⟩ rfl).trans (congrArg (k0_pay2 (F := Ideal) x0 x1 x2 x3 x4) ?_)
    funext a; apply Fin.ext
    match a with
    | ⟨0, _⟩ => show r.val = 0 + 1 * r.val; omega
    | ⟨1, _⟩ => show 8 + s.val = 4 * (2 + 1 * u.val) + (0 + 1 * s.val); omega
  · obtain ⟨u, r, s, rfl⟩ : ∃ (u : Fin 1) (r : Fin 8192) (s : Fin 4), x = ix3 u r s := ⟨x 0, x 1, x 2, eq_ix3 x⟩
    have hu : u.val = 0 := by omega
    refine (slab_apply (k0_pay2 (F := Ideal) x0 x1 x2 x3 x4) 4 slices_S8192x16_o0_4_S8192x4 shapeCasts_S8192x4_S1x8192x4 u r s
      ⟨4 + s.val, by omega⟩ rfl).trans (congrArg (k0_pay2 (F := Ideal) x0 x1 x2 x3 x4) ?_)
    funext a; apply Fin.ext
    match a with
    | ⟨0, _⟩ => show r.val = 0 + 1 * r.val; omega
    | ⟨1, _⟩ => show 4 + s.val = 4 * (1 + 1 * u.val) + (0 + 1 * s.val); omega
  · obtain ⟨u, r, s, rfl⟩ : ∃ (u : Fin 1) (r : Fin 8192) (s : Fin 4), x = ix3 u r s := ⟨x 0, x 1, x 2, eq_ix3 x⟩
    have hu : u.val = 0 := by omega
    refine (slab_apply (k0_pay2 (F := Ideal) x0 x1 x2 x3 x4) 0 slices_S8192x16_o0_0_S8192x4 shapeCasts_S8192x4_S1x8192x4 u r s
      ⟨0 + s.val, by omega⟩ rfl).trans (congrArg (k0_pay2 (F := Ideal) x0 x1 x2 x3 x4) ?_)
    funext a; apply Fin.ext
    match a with
    | ⟨0, _⟩ => show r.val = 0 + 1 * r.val; omega
    | ⟨1, _⟩ => show 0 + s.val = 4 * (0 + 1 * u.val) + (0 + 1 * s.val); omega

/-! ## From the blocks to the array -/

section Array

variable (V : (c : Dev nD) → (b : Ref sig .tc) → Buf (Elt Ideal) ((c : Thread nD τ).loc b))

/-- The printed index maps over the 128 points: the latent block and the output block move with the point along
    their long axis; `w1, b1, w2, b2` are whole at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 3) = 0 ∧ win0_5.index t (1 : Fin 3) = t.val ∧ win0_5.index t (2 : Fin 3) = 0 :=
  (by decide +kernel : ∀ t : Fin grid0.N, _)

/-- The whole-array windows read their arrays. -/
theorem blk1_eq (c : Dev nD) (t : Fin cfg0.N) : iblk0 V c 1 t = V c main_arg2 := by
  obtain ⟨-, -, e0, e1, -⟩ := idx_facts t
  funext y
  show V c main_arg2 (((cfg0.win 1).blk t).view.emb y) = V c main_arg2 y
  refine congrArg (V c main_arg2) (funext fun a => Fin.ext ?_)
  match a with
  | ⟨0, _⟩ => show win0_1.index t (0 : Fin 2) * 16 + 1 * (y 0).val = (y 0).val; omega
  | ⟨1, _⟩ => show win0_1.index t (1 : Fin 2) * 64 + 1 * (y 1).val = (y 1).val; omega
theorem blk2_eq (c : Dev nD) (t : Fin cfg0.N) : iblk0 V c 2 t = V c main_arg3 := by
  obtain ⟨-, -, -, -, e0, -⟩ := idx_facts t
  funext y
  show V c main_arg3 (((cfg0.win 2).blk t).view.emb y) = V c main_arg3 y
  refine congrArg (V c main_arg3) (funext fun a => Fin.ext ?_)
  match a with
  | ⟨0, _⟩ => show win0_2.index t (0 : Fin 1) * 64 + 1 * (y 0).val = (y 0).val; omega
theorem blk3_eq (c : Dev nD) (t : Fin cfg0.N) : iblk0 V c 3 t = V c main_arg4 := by
  obtain ⟨-, -, -, -, -, e0, e1, -⟩ := idx_facts t
  funext y
  show V c main_arg4 (((cfg0.win 3).blk t).view.emb y) = V c main_arg4 y
  refine congrArg (V c main_arg4) (funext fun a => Fin.ext ?_)
  match a with
  | ⟨0, _⟩ => show win0_3.index t (0 : Fin 2) * 64 + 1 * (y 0).val = (y 0).val; omega
  | ⟨1, _⟩ => show win0_3.index t (1 : Fin 2) * 16 + 1 * (y 1).val = (y 1).val; omega
theorem blk4_eq (c : Dev nD) (t : Fin cfg0.N) : iblk0 V c 4 t = V c main_arg5 := by
  obtain ⟨-, -, -, -, -, -, -, e0, -⟩ := idx_facts t
  funext y
  show V c main_arg5 (((cfg0.win 4).blk t).view.emb y) = V c main_arg5 y
  refine congrArg (V c main_arg5) (funext fun a => Fin.ext ?_)
  match a with
  | ⟨0, _⟩ => show win0_4.index t (0 : Fin 1) * 16 + 1 * (y 0).val = (y 0).val; omega

/-- WHAT POINT `t` WRITES BACK is block `t` of `decoded` of the arrays as the region finds them. -/
theorem flushed_eq (c : Dev nD) (t : Fin cfg0.N) :
    (dat0 V c).flushed 5 t = ((cfg0.win 5).blk t).view.read (Elt Ideal)
      (decoded (V c main_arg1) (V c main_arg2) (V c main_arg3) (V c main_arg4) (V c main_arg5)) := by
  show (cfg0.win 5).cut (grid0.coords t) ((dat0 V c).after 5 t) = _
  rw [after0_5, blk1_eq, blk2_eq, blk3_eq, blk4_eq]
  obtain ⟨e0, e1, -, -, -, -, -, -, e50, e51, e52⟩ := idx_facts t
  funext y
  show out0_5 (F := Ideal) (iblk0 V c 0 t) (V c main_arg2) (V c main_arg3) (V c main_arg4) (V c main_arg5) y
    = decoded (V c main_arg1) (V c main_arg2) (V c main_arg3) (V c main_arg4) (V c main_arg5) (((cfg0.win 5).blk t).view.emb y)
  refine (out_apply (iblk0 V c 0 t) (V c main_arg2) (V c main_arg3) (V c main_arg4) (V c main_arg5) y).trans ?_
  unfold decoded
  have hy0 : (y 0).val < 4 := (y 0).isLt
  have hy1 : (y 1).val < 8192 := (y 1).isLt
  have hy2 : (y 2).val < 4 := (y 2).isLt
  have hrow : ∀ k : Fin 16, iblk0 V c 0 t (ix2 (rowOf y) k)
      = V c main_arg1 (ix2 (⟨((((cfg0.win 5).blk t).view.emb y) 1).val, idx3_lt1 _⟩ : Fin 1048576) k) := fun k => by
    show V c main_arg1 (((cfg0.win 0).blk t).view.emb (ix2 (rowOf y) k)) = _
    refine congrArg (V c main_arg1) (funext fun a => Fin.ext ?_)
    match a with
    | ⟨0, _⟩ => show win0_0.index t (0 : Fin 2) * 8192 + 1 * (y 1).val = win0_5.index t (1 : Fin 3) * 8192 + 1 * (y 1).val; omega
    | ⟨1, _⟩ => show win0_0.index t (1 : Fin 2) * 16 + 1 * k.val = k.val; omega
  have hcol : colOf y = (⟨4 * ((((cfg0.win 5).blk t).view.emb y) 0).val + ((((cfg0.win 5).blk t).view.emb y) 2).val,
      by have h0 := idx3_lt0 (((cfg0.win 5).blk t).view.emb y); have h2 := idx3_lt2 (((cfg0.win 5).blk t).view.emb y); omega⟩ : Fin 16) :=
    Fin.ext (by
      show 4 * (y 0).val + (y 2).val = 4 * (win0_5.index t (0 : Fin 3) * 4 + 1 * (y 0).val) + (win0_5.index t (2 : Fin 3) * 4 + 1 * (y 2).val)
      omega)
  rw [hcol]
  exact congrArg (fun z => decRow z (V c main_arg2) (V c main_arg3) (V c main_arg4) (V c main_arg5) _) (funext hrow)

/-- An index of the array is in point `t`'s block iff each coordinate is in the block's range on its axis. -/
theorem mem_blk (t : Fin cfg0.N) (i : S4x1048576x4.Idx) :
    i ∈ ((cfg0.win 5).blk t).view.set ↔ ∀ a : Fin 3, win0_5.index t a * S4x8192x4.size a ≤ (i a).val
      ∧ (i a).val < win0_5.index t a * S4x8192x4.size a + S4x8192x4.size a := by
  show i ∈ ((View.whole main_v0).slice (win0_5.rect t)).set ↔ _
  rw [View.set_slice_whole, Rect.mem_set_unit]
  exact Iff.rfl

/-- The 128 blocks cover the array: row `n` of axis 1 is in the block of point `n / 8192`. -/
theorem covered (i : S4x1048576x4.Idx) :
    ∃ t : Fin cfg0.N, (cfg0.win 5).flush t = true ∧ i ∈ ((cfg0.win 5).blk t).view.set := by
  have h0 : (i 0).val < 4 := (i 0).isLt
  have h1 : (i 1).val < 1048576 := (i 1).isLt
  have h2 : (i 2).val < 4 := (i 2).isLt
  let t : Fin cfg0.N := ⟨(i 1).val / 8192, by rw [show cfg0.N = 128 from N_0]; omega⟩
  obtain ⟨-, -, -, -, -, -, -, -, e50, e51, e52⟩ := idx_facts t
  have et : t.val = (i 1).val / 8192 := rfl
  refine ⟨t, flush0_5 t, ?_⟩
  rw [mem_blk]
  intro a
  match a with
  | ⟨0, _⟩ => show win0_5.index t (0 : Fin 3) * 4 ≤ (i 0).val ∧ (i 0).val < win0_5.index t (0 : Fin 3) * 4 + 4; omega
  | ⟨1, _⟩ => show win0_5.index t (1 : Fin 3) * 8192 ≤ (i 1).val ∧ (i 1).val < win0_5.index t (1 : Fin 3) * 8192 + 8192; omega
  | ⟨2, _⟩ => show win0_5.index t (2 : Fin 3) * 4 ≤ (i 2).val ∧ (i 2).val < win0_5.index t (2 : Fin 3) * 4 + 4; omega

/-- THE OUTPUT ARRAY after the first kernel is `decoded` of the five arrays as the region finds them. -/
theorem final (c : Dev nD) : (dat0 V c).arrAt 5 cfg0.N
    = decoded (V c main_arg1) (V c main_arg2) (V c main_arg3) (V c main_arg4) (V c main_arg5) :=
  (dat0 V c).arrAt_eq_of_cover 5 _ (fun t _ => flushed_eq V c t) covered

end Array

end Cert.VqLinear.Decode

end
-- ==== Proof.Linear.lean ====
/-
  The second kernel (the dense linear layer) read as values.

  At a grid point the body loads the whole `[128, 4096]` activations `X`, a 512-row block of the weight `W` and the
  matching 512 lanes of the bias row, contracts `X` with the block along the 4096 axis and adds the bias:
  the output block's entry `(r, q)` is `Σ_k X[r,k] · Wblock[q,k] + biasblock[0,q]`.  The weight block at point `t` is
  rows `512·t …` of `W`, the bias block lanes `512·t …`, and the output block columns `512·t …` of the output array,
  so what point `t` writes back is block `t` of `linear X W bias`; the 8 blocks cover the array.
-/
import proofs.«110481_j13211319403237_2_alg».proof.Proof.Gen.KernelIdeal.Frame
import proofs.«110481_j13211319403237_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.VqLinear.Linear

open Cert.KernelIdeal Cert.KernelIdeal.Gen Cert.VqLinear
open Idealize.ShloMosaic Idealize.ShloMosaic.TcCoe Idealize.ShloMosaic.ValueIdx Idealize.SL.Sem

/-! ## The body's matrix product, at an index -/

theorem matmul_xw_lhs_free (i : S128x512.Idx) (q : dot_S128x4096_S512x4096_S128x512_1_1_0_0_n_n.contr.Idx) : (dot_S128x4096_S512x4096_S128x512_1_1_0_0_n_n.lhsIdx i q 0).val = (i 0).val := by
  unfold DotDims.lhsIdx
  rw [dif_neg (show ¬(0 : Fin S128x4096.rank) ∈ dot_S128x4096_S512x4096_S128x512_1_1_0_0_n_n.lhsBatch by decide),
    dif_pos (show (0 : Fin S128x4096.rank) ∈ dot_S128x4096_S512x4096_S128x512_1_1_0_0_n_n.lhsNonContracting by decide)]
  rfl
theorem matmul_xw_rhs_free (i : S128x512.Idx) (q : dot_S128x4096_S512x4096_S128x512_1_1_0_0_n_n.contr.Idx) : (dot_S128x4096_S512x4096_S128x512_1_1_0_0_n_n.rhsIdx i q 0).val = (i 1).val := by
  unfold DotDims.rhsIdx
  rw [dif_neg (show ¬(0 : Fin S512x4096.rank) ∈ dot_S128x4096_S512x4096_S128x512_1_1_0_0_n_n.rhsBatch by decide),
    dif_pos (show (0 : Fin S512x4096.rank) ∈ dot_S128x4096_S512x4096_S128x512_1_1_0_0_n_n.rhsNonContracting by decide)]
  rfl

/-- `[128,4096] · [512,4096]ᵀ` into a zero accumulator: entry `(a, b)` is `Σ_k l[a,k] · r[b,k]`. -/
theorem matmul_xw_apply (l : FVec Ideal S128x4096 .bf16) (r : FVec Ideal S512x4096 .bf16) (a : Fin 128) (b : Fin 512) :
    matmul dot_S128x4096_S512x4096_S128x512_1_1_0_0_n_n none l r (constant S128x512 .f32 0x00000000#32) (ix2 a b)
      = ∑ k : Fin 4096, l (ix2 a k) * r (ix2 b k) := by
  show FloatOps.matmul dot_S128x4096_S512x4096_S128x512_1_1_0_0_n_n none l r (constant S128x512 .f32 0x00000000#32) (ix2 a b) = _
  rw [Ideal.matmul_constant_zero_apply, ← Equiv.sum_comp (contrEquiv1 dot_S128x4096_S512x4096_S128x512_1_1_0_0_n_n 4096 rfl rfl).symm]
  refine Finset.sum_congr rfl fun k _ => ?_
  have hk := contrEquiv1_symm_val dot_S128x4096_S512x4096_S128x512_1_1_0_0_n_n 4096 rfl rfl k
  have el : dot_S128x4096_S512x4096_S128x512_1_1_0_0_n_n.lhsIdx (ix2 a b) ((contrEquiv1 dot_S128x4096_S512x4096_S128x512_1_1_0_0_n_n 4096 rfl rfl).symm k) = ix2 a k :=
    funext fun d => Fin.ext (by
      match d with
      | ⟨0, _⟩ => exact matmul_xw_lhs_free _ _
      | ⟨1, _⟩ => exact (dot_S128x4096_S512x4096_S128x512_1_1_0_0_n_n.lhsIdx_val_of_single rfl _ _).trans hk)
  have er : dot_S128x4096_S512x4096_S128x512_1_1_0_0_n_n.rhsIdx (ix2 a b) ((contrEquiv1 dot_S128x4096_S512x4096_S128x512_1_1_0_0_n_n 4096 rfl rfl).symm k) = ix2 b k :=
    funext fun d => Fin.ext (by
      match d with
      | ⟨0, _⟩ => exact matmul_xw_rhs_free _ _
      | ⟨1, _⟩ => exact (dot_S128x4096_S512x4096_S128x512_1_1_0_0_n_n.rhsIdx_val_of_single rfl _ _).trans hk)
  rw [el, er]

/-! ## The body's arithmetic -/

theorem zeros2 : (![0, 0] : Fin 2 → Nat) = fun _ => 0 := funext fun a => by fin_cases a <;> rfl

/-- The row and the column of an output-block index, as literal-extent coordinates. -/
def rowOf (y : S128x512.Idx) : Fin 128 := ⟨(y 0).val, idx2_lt0 y⟩
def colOf (y : S128x512.Idx) : Fin 512 := ⟨(y 1).val, idx2_lt1 y⟩

/-- The output block at `(r, q)`: `Σ_k X[r,k] · Wb[q,k] + bias[0,q]`. -/
theorem out_coord_apply (x0 : Vec Ideal S128x4096 .bf16) (x1 : Vec Ideal S512x4096 .bf16) (x2 : Vec Ideal S1x512 .f32)
    (r : Fin 128) (q : Fin 512) :
    out1_3 (F := Ideal) x0 x1 x2 (ix2 r q) = (∑ k : Fin 4096, x0 (ix2 r k) * x1 (ix2 q k)) + x2 (ix2 (0 : Fin 1) q) := by
  unfold out1_3
  rw [View.canon_unit_zero zeros2]
  simp only [View.ld_unit_zero (S := S128x4096) zeros2, View.ld_unit_zero (S := S512x4096) zeros2, View.ld_unit_zero (S := S1x512) zeros2]
  unfold k1_pay1
  show matmul (F := Ideal) dot_S128x4096_S512x4096_S128x512_1_1_0_0_n_n none
        (shapeCast S128x4096 x0 shapeCasts_S128x4096_S128x4096) (shapeCast S512x4096 x1 shapeCasts_S512x4096_S512x4096)
        (constant S128x512 .f32 0x00000000#32) (ix2 r q)
      + broadcastTo S128x512 (shapeCast S1x512 x2 shapeCasts_S1x512_S1x512) broadcasts_S1x512_S128x512 (ix2 r q) = _
  rw [shapeCast_self, shapeCast_self, shapeCast_self, matmul_xw_apply, broadcastTo_1b_ab_apply]

/-- WHAT THE BODY LEAVES in the output block, at any index `y = (r, q)`. -/
theorem out_apply (x0 : Vec Ideal S128x4096 .bf16) (x1 : Vec Ideal S512x4096 .bf16) (x2 : Vec Ideal S1x512 .f32) (y : S128x512.Idx) :
    out1_3 (F := Ideal) x0 x1 x2 y
      = (∑ k : Fin 4096, x0 (ix2 (rowOf y) k) * x1 (ix2 (colOf y) k)) + x2 (ix2 (0 : Fin 1) (colOf y)) := by
  obtain ⟨r, q, rfl⟩ : ∃ (r : Fin 128) (q : Fin 512), y = ix2 r q := ⟨y 0, y 1, eq_ix2 y⟩
  exact out_coord_apply x0 x1 x2 r q

/-! ## From the blocks to the array -/

section Array

variable (V : (c : Dev nD) → (b : Ref sig .tc) → Buf (Elt Ideal) ((c : Thread nD τ).loc b))

/-- The printed index maps over the 8 points: the weight block moves along the weight's rows, the bias block and the
    output block along their lanes; the activations are whole at every point. -/
theorem idx_facts : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

/-- The activations' window reads its whole array. -/
theorem blk0_eq (c : Dev nD) (t : Fin cfg1.N) : iblk1 V c 0 t = V c main_v3 := by
  obtain ⟨e0, e1, -⟩ := idx_facts t
  funext y
  show V c main_v3 (((cfg1.win 0).blk t).view.emb y) = V c main_v3 y
  refine congrArg (V c main_v3) (funext fun a => Fin.ext ?_)
  match a with
  | ⟨0, _⟩ => show win1_0.index t (0 : Fin 2) * 128 + 1 * (y 0).val = (y 0).val; omega
  | ⟨1, _⟩ => show win1_0.index t (1 : Fin 2) * 4096 + 1 * (y 1).val = (y 1).val; omega

/-- WHAT POINT `t` WRITES BACK is block `t` of `linear` of the three arrays as the region finds them. -/
theorem flushed_eq (c : Dev nD) (t : Fin cfg1.N) :
    (dat1 V c).flushed 3 t = ((cfg1.win 3).blk t).view.read (Elt Ideal)
      (linear (V c main_v3) (V c main_v1) (V c main_v4)) := by
  show (cfg1.win 3).cut (grid1.coords t) ((dat1 V c).after 3 t) = _
  rw [after1_3, blk0_eq]
  obtain ⟨-, -, e10, e11, e20, e21, e30, e31⟩ := idx_facts t
  funext y
  show out1_3 (F := Ideal) (V c main_v3) (iblk1 V c 1 t) (iblk1 V c 2 t) y
    = linear (V c main_v3) (V c main_v1) (V c main_v4) (((cfg1.win 3).blk t).view.emb y)
  refine (out_apply (V c main_v3) (iblk1 V c 1 t) (iblk1 V c 2 t) y).trans ?_
  unfold linear
  have hy0 : (y 0).val < 128 := (y 0).isLt
  have hy1 : (y 1).val < 512 := (y 1).isLt
  have hX : ∀ k : Fin 4096, V c main_v3 (ix2 (rowOf y) k)
      = V c main_v3 (ix2 (⟨((((cfg1.win 3).blk t).view.emb y) 0).val, idx2_lt0 _⟩ : Fin 128) k) := fun k => by
    refine congrArg (V c main_v3) (funext fun a => Fin.ext ?_)
    match a with
    | ⟨0, _⟩ => show (y 0).val = win1_3.index t (0 : Fin 2) * 128 + 1 * (y 0).val; omega
    | ⟨1, _⟩ => rfl
  have hW : ∀ k : Fin 4096, iblk1 V c 1 t (ix2 (colOf y) k)
      = V c main_v1 (ix2 (⟨((((cfg1.win 3).blk t).view.emb y) 1).val, idx2_lt1 _⟩ : Fin 4096) k) := fun k => by
    show V c main_v1 (((cfg1.win 1).blk t).view.emb (ix2 (colOf y) k)) = _
    refine congrArg (V c main_v1) (funext fun a => Fin.ext ?_)
    match a with
    | ⟨0, _⟩ => show win1_1.index t (0 : Fin 2) * 512 + 1 * (y 1).val = win1_3.index t (1 : Fin 2) * 512 + 1 * (y 1).val; omega
    | ⟨1, _⟩ => show win1_1.index t (1 : Fin 2) * 4096 + 1 * k.val = k.val; omega
  have hB : iblk1 V c 2 t (ix2 (0 : Fin 1) (colOf y))
      = V c main_v4 (ix2 (0 : Fin 1) (⟨((((cfg1.win 3).blk t).view.emb y) 1).val, idx2_lt1 _⟩ : Fin 4096)) := by
    show V c main_v4 (((cfg1.win 2).blk t).view.emb (ix2 (0 : Fin 1) (colOf y))) = _
    refine congrArg (V c main_v4) (funext fun a => Fin.ext ?_)
    match a with
    | ⟨0, _⟩ => show win1_2.index t (0 : Fin 2) * 1 + 1 * 0 = 0; omega
    | ⟨1, _⟩ => show win1_2.index t (1 : Fin 2) * 512 + 1 * (y 1).val = win1_3.index t (1 : Fin 2) * 512 + 1 * (y 1).val; omega
  rw [hB]
  exact congrArg (· + _) (Finset.sum_congr rfl fun k _ => by rw [hX k, hW k])

/-- An index of the array is in point `t`'s block iff each coordinate is in the block's range on its axis. -/
theorem mem_blk (t : Fin cfg1.N) (i : S128x4096.Idx) :
    i ∈ ((cfg1.win 3).blk t).view.set ↔ ∀ a : Fin 2, win1_3.index t a * S128x512.size a ≤ (i a).val
      ∧ (i a).val < win1_3.index t a * S128x512.size a + S128x512.size a := by
  show i ∈ ((View.whole main_v5).slice (win1_3.rect t)).set ↔ _
  rw [View.set_slice_whole, Rect.mem_set_unit]
  exact Iff.rfl

/-- The 8 blocks cover the array: column `o` is in the block of point `o / 512`. -/
theorem covered (i : S128x4096.Idx) :
    ∃ t : Fin cfg1.N, (cfg1.win 3).flush t = true ∧ i ∈ ((cfg1.win 3).blk t).view.set := by
  have h0 : (i 0).val < 128 := (i 0).isLt
  have h1 : (i 1).val < 4096 := (i 1).isLt
  let t : Fin cfg1.N := ⟨(i 1).val / 512, by rw [show cfg1.N = 8 from N_1]; omega⟩
  obtain ⟨-, -, -, -, -, -, e30, e31⟩ := idx_facts t
  have et : t.val = (i 1).val / 512 := rfl
  refine ⟨t, flush1_3 t, ?_⟩
  rw [mem_blk]
  intro a
  match a with
  | ⟨0, _⟩ => show win1_3.index t (0 : Fin 2) * 128 ≤ (i 0).val ∧ (i 0).val < win1_3.index t (0 : Fin 2) * 128 + 128; omega
  | ⟨1, _⟩ => show win1_3.index t (1 : Fin 2) * 512 ≤ (i 1).val ∧ (i 1).val < win1_3.index t (1 : Fin 2) * 512 + 512; omega

/-- THE OUTPUT ARRAY after the second kernel is `linear` of the three arrays as the region finds them. -/
theorem final (c : Dev nD) : (dat1 V c).arrAt 3 cfg1.N = linear (V c main_v3) (V c main_v1) (V c main_v4) :=
  (dat1 V c).arrAt_eq_of_cover 3 _ (fun t _ => flushed_eq V c t) covered

end Array

end Cert.VqLinear.Linear

end
-- ==== Proof.Reshape.lean ====
/-
  The host reshapes around the second kernel, read at an index.

  The kernel's program flattens the `[8, 16]` batch of rows of `x` to 128 rows, turns the bias into a `[1, 4096]`
  row, runs `linear`, and un-flattens the 128 rows of the result.  Row `16·b + s` of the flattened array is row
  `(b, s)` of the batch, so the round trip is `result`: entry `(b, s, o)` is `Σ_k x[b,s,k] · W[o,k] + bias[o]`.
-/
import proofs.«110481_j13211319403237_2_alg».proof.Proof.Spec
import Idealize.ShloMosaic.Lib.Pipeline.Value
import Idealize.ShloMosaic.Lib.ValueLayout

noncomputable section

open scoped BigOperators

namespace Cert.VqLinear

open Idealize.ShloMosaic Idealize.ShloMosaic.ValueIdx

/-- `x` flattened to 128 rows, at `(16·b + s, k)`, is `x[b, s, k]`. -/
theorem flat_rows_apply (x : (⟨3, ![8, 16, 4096]⟩ : Shape).Idx → EReal)
    (h : (⟨3, ![8, 16, 4096]⟩ : Shape).ShapeCasts ⟨2, ![128, 4096]⟩) (b : Fin 8) (s : Fin 16) (k : Fin 4096) (r : Fin 128)
    (hr : r.val = b.val * 16 + s.val) :
    shapeCast ⟨2, ![128, 4096]⟩ x h (ix2 r k) = x (ix3 b s k) :=
  shapeCast_apply x h _ _ (by
    rw [Shape.rowMajor_val_three, Shape.rowMajor_val_two]
    show (b.val * 16 + s.val) * 4096 + k.val = r.val * 4096 + k.val
    rw [hr])

/-- `linear` on the flattened rows and the bias row, un-flattened, is `result`. -/
theorem result_of_linear (x : (⟨3, ![8, 16, 4096]⟩ : Shape).Idx → EReal) (W : (⟨2, ![4096, 4096]⟩ : Shape).Idx → EReal)
    (bias : (⟨1, ![4096]⟩ : Shape).Idx → EReal)
    (h1 : (⟨3, ![8, 16, 4096]⟩ : Shape).ShapeCasts ⟨2, ![128, 4096]⟩) (h2 : (⟨1, ![4096]⟩ : Shape).ShapeCasts ⟨2, ![1, 4096]⟩)
    (h3 : (⟨2, ![128, 4096]⟩ : Shape).ShapeCasts ⟨3, ![8, 16, 4096]⟩) :
    shapeCast ⟨3, ![8, 16, 4096]⟩ (linear (shapeCast ⟨2, ![128, 4096]⟩ x h1) W (shapeCast ⟨2, ![1, 4096]⟩ bias h2)) h3
      = result x W bias := by
  funext i
  obtain ⟨b, s, o, rfl⟩ : ∃ (b : Fin 8) (s : Fin 16) (o : Fin 4096), i = ix3 b s o := ⟨i 0, i 1, i 2, eq_ix3 i⟩
  have hb := b.isLt; have hs := s.isLt
  let r : Fin 128 := ⟨b.val * 16 + s.val, by omega⟩
  refine (shapeCast_apply _ h3 (ix3 b s o) (ix2 r o) (by
    rw [Shape.rowMajor_val_three, Shape.rowMajor_val_two]
    show (b.val * 16 + s.val) * 4096 + o.val = (b.val * 16 + s.val) * 4096 + o.val
    rfl)).trans ?_
  unfold linear result
  show (∑ k : Fin 4096, shapeCast ⟨2, ![128, 4096]⟩ x h1 (ix2 r k) * W (ix2 o k)) + shapeCast ⟨2, ![1, 4096]⟩ bias h2 (ix2 (0 : Fin 1) o)
    = (∑ k : Fin 4096, x (ix3 b s k) * W (ix2 o k)) + bias (ix1 o)
  rw [shapeCast_a_1a_apply]
  exact congrArg (· + bias (ix1 o)) (Finset.sum_congr rfl fun k _ => by rw [flat_rows_apply x h1 b s k r rfl])

end Cert.VqLinear

end
-- ==== Proof.Boundary.lean ====
/-
  The kernel program's result as a function of its arguments.

  The program is: the decoder kernel; the reshape of its `[4, 1048576, 4]` output to the `[4096, 4096]` weight, the
  flattening of `x` to `[128, 4096]` (and its change of float format, the identity on extended reals) and the bias as a
  `[1, 4096]` row; the linear kernel; the un-flattening of its output.  Walking the buffer contents from the launch
  memory through these four segments: the decoder's output array is `decoded` of the launch arguments, the linear
  kernel's output array is `linear` of the three arrays the host operations made from it and from `x` and the bias,
  and the un-flattened result is `result x (reshape (decoded …)) bias`.
-/
import proofs.«110481_j13211319403237_2_alg».proof.Proof.Gen.KernelIdeal.Frame
import proofs.«110481_j13211319403237_2_alg».proof.Proof.Decode
import proofs.«110481_j13211319403237_2_alg».proof.Proof.Linear
import proofs.«110481_j13211319403237_2_alg».proof.Proof.Reshape
import Idealize.ShloMosaic.Lib.StableHlo.Run

set_option maxRecDepth 16384

noncomputable section

namespace Cert.VqLinear.Boundary

open Cert.KernelIdeal Cert.KernelIdeal.Gen Cert.VqLinear
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- After the decoder kernel its output array is `decoded` of the launch arguments. -/
theorem decoded_at_exit (c : Dev nD) : W1 m ρ c (Proc.devRef .tc main_v0)
    = decoded (m ((c : Thread nD τ).loc main_arg1)) (m ((c : Thread nD τ).loc main_arg2)) (m ((c : Thread nD τ).loc main_arg3))
        (m ((c : Thread nD τ).loc main_arg4)) (m ((c : Thread nD τ).loc main_arg5)) :=
  (W1_arr m ρ c 5).trans (Decode.final (V0 m ρ) c)

/-- The decoder kernel leaves `x` and the bias as launched. -/
theorem x_at_exit (c : Dev nD) : W1 m ρ c (Proc.devRef .tc main_arg0) = m ((c : Thread nD τ).loc main_arg0) :=
  W1_of_ne m ρ c main_arg0 (by decide)
theorem bias_at_exit (c : Dev nD) : W1 m ρ c (Proc.devRef .tc main_arg6) = m ((c : Thread nD τ).loc main_arg6) :=
  W1_of_ne m ρ c main_arg6 (by decide)

/-- The three arrays the linear kernel is entered with. -/
theorem weight_at_entry (c : Dev nD) : V2 m ρ c main_v1
    = shapeCast S4096x4096 (W1 m ρ c (Proc.devRef .tc main_v0)) shapeCasts_S4x1048576x4_S4096x4096 := by
  show StableHlo.after hostOps1 (W1 m ρ c) (Proc.devRef .tc main_v1) = _
  after_results
  rfl
theorem rows_at_entry (c : Dev nD) : V2 m ρ c main_v3
    = shapeCast S128x4096 (W1 m ρ c (Proc.devRef .tc main_arg0)) shapeCasts_S8x16x4096_S128x4096 := by
  show StableHlo.after hostOps1 (W1 m ρ c) (Proc.devRef .tc main_v3) = _
  after_results
  rfl
theorem biasrow_at_entry (c : Dev nD) : V2 m ρ c main_v4
    = shapeCast S1x4096 (W1 m ρ c (Proc.devRef .tc main_arg6)) shapeCasts_S4096_S1x4096 := by
  show StableHlo.after hostOps1 (W1 m ρ c) (Proc.devRef .tc main_v4) = _
  after_results
  rfl

/-- The result buffer at the last boundary is the un-flattened output array of the linear kernel. -/
theorem result_at_end (c : Dev nD) : W4 m ρ c (Proc.devRef .tc main_v6)
    = shapeCast S8x16x4096 (W3 m ρ c (Proc.devRef .tc main_v5)) shapeCasts_S128x4096_S8x16x4096 := by
  show StableHlo.after hostOps2 (W3 m ρ c) (Proc.devRef .tc main_v6) = _
  after_results
  rfl

/-- THE KERNEL PROGRAM'S RESULT: `result x (reshape (decoded vq w1 b1 w2 b2)) bias` of the launch arguments. -/
theorem value (c : Dev nD) : W4 m ρ c (Proc.devRef .tc main_v6)
    = result (m ((c : Thread nD τ).loc main_arg0))
        (shapeCast S4096x4096 (decoded (m ((c : Thread nD τ).loc main_arg1)) (m ((c : Thread nD τ).loc main_arg2))
          (m ((c : Thread nD τ).loc main_arg3)) (m ((c : Thread nD τ).loc main_arg4)) (m ((c : Thread nD τ).loc main_arg5)))
          shapeCasts_S4x1048576x4_S4096x4096)
        (m ((c : Thread nD τ).loc main_arg6)) := by
  rw [result_at_end, W3_arr m ρ c 3, Linear.final (V2 m ρ) c, weight_at_entry, rows_at_entry, biasrow_at_entry,
    decoded_at_exit, x_at_exit, bias_at_exit]
  exact result_of_linear _ _ _ _ _ _

end Cert.VqLinear.Boundary

end
-- ==== Proof.lean ====
/-
  The certificate of `Cert.Claim` for the VQ-decoded linear layer.

  The kernel program decodes a codebook of 1048576 latent rows through a two-layer MLP (16 → 64 → 16 with a ReLU),
  lays the decoded rows out group-major as the `[4096, 4096]` weight matrix `W`, and applies `x · Wᵀ + bias` to 128
  rows of activations, in two pallas_calls joined by host reshapes; the reference does the same with three host
  matrix products, a transpose and reshapes.  Over the extended reals both results are
  `result x (reshape (decoded vq w1 b1 w2 b2)) bias` (Proof/Spec.lean): the reference by reading its run one operation at
  a time (Proof/RefValue.lean), the kernel program by reading what each pallas_call's grid points write back
  (Proof/Decode.lean, Proof/Linear.lean) and walking the buffer contents through the host reshapes
  (Proof/Boundary.lean, Proof/Reshape.lean) along its run (Proof/KernelRun.lean).  The two sides are sums of the same
  products in the same order, so no law of arithmetic beyond the definitions is used and the precondition (finite
  inputs) is never opened.  The three frames are the generated ones; the idealization rewrote nothing, so
  `preserves` is `True`.
-/
import proofs.«110481_j13211319403237_2_alg».proof.Defs
import proofs.«110481_j13211319403237_2_alg».proof.Proof.Gen.Kernel
import proofs.«110481_j13211319403237_2_alg».proof.Proof.Gen.Kernel.Skeleton
import proofs.«110481_j13211319403237_2_alg».proof.Proof.Gen.Kernel.Launch
import proofs.«110481_j13211319403237_2_alg».proof.Proof.Gen.Kernel.Points
import proofs.«110481_j13211319403237_2_alg».proof.Proof.Gen.Kernel.Frame
import proofs.«110481_j13211319403237_2_alg».proof.Proof.Gen.KernelIdeal
import proofs.«110481_j13211319403237_2_alg».proof.Proof.Gen.KernelIdeal.Skeleton
import proofs.«110481_j13211319403237_2_alg».proof.Proof.Gen.KernelIdeal.Launch
import proofs.«110481_j13211319403237_2_alg».proof.Proof.Gen.KernelIdeal.Points
import proofs.«110481_j13211319403237_2_alg».proof.Proof.Gen.KernelIdeal.Frame
import proofs.«110481_j13211319403237_2_alg».proof.Proof.Gen.ReferenceIdeal
import proofs.«110481_j13211319403237_2_alg».proof.Proof.Gen.ReferenceIdeal.Run
import proofs.«110481_j13211319403237_2_alg».proof.Proof.Gen.ReferenceIdeal.Read
import proofs.«110481_j13211319403237_2_alg».proof.Proof.Gen.Pre_finite_inputs
import proofs.«110481_j13211319403237_2_alg».proof.Proof.KernelRun
import proofs.«110481_j13211319403237_2_alg».proof.Proof.RefValue
import proofs.«110481_j13211319403237_2_alg».proof.Proof.Boundary
import Idealize.ShloMosaic.Adequacy
import Idealize.ShloMosaic.Init

noncomputable section

namespace Cert.Proof

open Idealize.ShloMosaic Idealize.ShloMosaic.TcCoe Idealize.SL.Sem Cert.VqLinear

/-- The word-level kernel program runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the seven arguments both programs end with `result x (reshape (decoded …)) bias`. -/
theorem algebraic : Cert.algebraic_KernelIdeal_ReferenceIdeal := by
  intro m ρ m' ρ' _ hagree
  refine ⟨fun c => result (m ((c : Thread Cert.KernelIdeal.nD Cert.KernelIdeal.τ).loc Cert.KernelIdeal.main_arg0))
      (shapeCast Cert.KernelIdeal.S4096x4096 (decoded
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))
        (m ((c : Thread Cert.KernelIdeal.nD Cert.KernelIdeal.τ).loc Cert.KernelIdeal.main_arg5)))
        Cert.KernelIdeal.Facts₀.shapeCasts_S4x1048576x4_S4096x4096)
      (m ((c : Thread Cert.KernelIdeal.nD Cert.KernelIdeal.τ).loc Cert.KernelIdeal.main_arg6)), ?_, ?_⟩
  · exact (θ_run Cert.KernelIdeal.defs _ _).mono
      (fun r h c => ⟨(h c).1.trans (Boundary.value m ρ c), (h c).2⟩) (Cert.KernelIdeal.RunValue.run_result (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v16_eq,
      Ref.result_eq _ _ _ _ _ _ _ Cert.KernelIdeal.Facts₀.shapeCasts_S4x1048576x4_S4096x4096,
      (hagree c).1, (hagree c).2.1, (hagree c).2.2.1, (hagree c).2.2.2.1, (hagree c).2.2.2.2.1, (hagree c).2.2.2.2.2.1,
      (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
